-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S1x128 .f32) (main_arg3 : FVec F S1 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S5000x128 : Shape := ⟨2, ![5000, 128]⟩
abbrev S128x1 : Shape := ⟨2, ![128, 1]⟩
abbrev S50000x1 : Shape := ⟨2, ![50000, 1]⟩
abbrev S1x1 : Shape := ⟨2, ![1, 1]⟩
abbrev S_ : Shape := ⟨0, ![]⟩
abbrev S50000 : Shape := ⟨1, ![50000]⟩
abbrev S800000x1 : Shape := ⟨2, ![800000, 1]⟩
abbrev S800000x128 : Shape := ⟨2, ![800000, 128]⟩

abbrev nBuf : Space → Nat
  | .hbm => 101
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x128, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S128x128, .f32⟩
  | .hbm, ⟨11, _⟩ => ⟨S128x128, .bf16⟩
  | .hbm, ⟨12, _⟩ => ⟨S50000x128, .f32⟩
  | .hbm, ⟨13, _⟩ => ⟨S128x1, .f32⟩
  | .hbm, ⟨14, _⟩ => ⟨S50000x1, .f32⟩
  | .hbm, ⟨15, _⟩ => ⟨S1x1, .f32⟩
  | .hbm, ⟨16, _⟩ => ⟨S50000x1, .f32⟩
  | .hbm, ⟨17, _⟩ => ⟨S50000x1, .f32⟩
  | .hbm, ⟨18, _⟩ => ⟨S50000x1, .f32⟩
  | .hbm, ⟨19, _⟩ => ⟨S50000x1, .f32⟩
  | .hbm, ⟨20, _⟩ => ⟨S_, .f32⟩
  | .hbm, ⟨21, _⟩ => ⟨S50000x1, .f32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .f32⟩
  | .hbm, ⟨37, _⟩ => ⟨S50000, .f32⟩
  | .hbm, ⟨38, _⟩ => ⟨S800000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .i1⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S_, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S_, .f32⟩
  | .hbm, ⟨51, _⟩ => ⟨S800000, .f32⟩
  | .hbm, ⟨52, _⟩ => ⟨S_, .f32⟩
  | .hbm, ⟨53, _⟩ => ⟨S50000, .f32⟩
  | .hbm, ⟨54, _⟩ => ⟨S800000x1, .i32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .i1⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S_, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S50000x1, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_call1_v0 : Ref sig .tc := ⟨.hbm, 63, rfl⟩
abbrev main_call1_v1 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_14 : Ref sig .tc := ⟨.hbm, 82, rfl⟩
abbrev main_v56 : Ref sig .tc := ⟨.hbm, 83, rfl⟩
abbrev main_v57 : Ref sig .tc := ⟨.hbm, 84, rfl⟩
abbrev main_c_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_16 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S5000x128_S128x128_S5000x128_1_0_0_1_n_n_wf : DotDims.WF S5000x128 S128x128 S5000x128 [1] [0] [0] [1] [] []
  dot_S50000x128_S128x1_S50000x1_1_0_0_1_n_n_wf : DotDims.WF S50000x128 S128x1 S50000x1 [1] [0] [0] [1] [] []
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S128x1 : Shape := ⟨2, ![128, 1]⟩
abbrev S50000x1 : Shape := ⟨2, ![50000, 1]⟩
abbrev S1x1 : Shape := ⟨2, ![1, 1]⟩
abbrev S_ : Shape := ⟨0, ![]⟩
abbrev S50000 : Shape := ⟨1, ![50000]⟩
abbrev S800000x1 : Shape := ⟨2, ![800000, 1]⟩
abbrev S800000x128 : Shape := ⟨2, ![800000, 128]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x128, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S128x1, .f32⟩
  | .hbm, ⟨11, _⟩ => ⟨S50000x1, .f32⟩
  | .hbm, ⟨12, _⟩ => ⟨S1x1, .f32⟩
  | .hbm, ⟨13, _⟩ => ⟨S50000x1, .f32⟩
  | .hbm, ⟨14, _⟩ => ⟨S50000x1, .f32⟩
  | .hbm, ⟨15, _⟩ => ⟨S50000x1, .f32⟩
  | .hbm, ⟨16, _⟩ => ⟨S50000x1, .f32⟩
  | .hbm, ⟨17, _⟩ => ⟨S_, .f32⟩
  | .hbm, ⟨18, _⟩ => ⟨S50000x1, .f32⟩
  | .hbm, ⟨19, _⟩ => ⟨S50000x1, .f32⟩
  | .hbm, ⟨20, _⟩ => ⟨S_, .f32⟩
  | .hbm, ⟨21, _⟩ => ⟨S50000x1, .f32⟩
  | .hbm, ⟨22, _⟩ => ⟨S50000x1, .f32⟩
  | .hbm, ⟨23, _⟩ => ⟨S50000, .f32⟩
  | .hbm, ⟨24, _⟩ => ⟨S128x128, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .i1⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S_, .f32⟩
  | .hbm, ⟨50, _⟩ => ⟨S800000, .f32⟩
  | .hbm, ⟨51, _⟩ => ⟨S_, .f32⟩
  | .hbm, ⟨52, _⟩ => ⟨S50000, .f32⟩
  | .hbm, ⟨53, _⟩ => ⟨S800000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .i1⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000, .f32⟩
  | .hbm, ⟨74, _⟩ => ⟨S800000x1, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S800000x128, .f32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x128, .f32⟩
  | .hbm, ⟨99, _⟩ => ⟨S_, .f32⟩
  | .hbm, ⟨100, _⟩ => ⟨S50000x128, .f32⟩
  | .hbm, ⟨101, _⟩ => ⟨S800000x1, .i32⟩
  | .hbm, ⟨102, _⟩ => ⟨S50000x128, .f32⟩
  | .hbm, ⟨103, _⟩ => ⟨S50000x1, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_call1_v0 : Ref sig .tc := ⟨.hbm, 62, rfl⟩
abbrev main_call1_v1 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_13 : Ref sig .tc := ⟨.hbm, 75, rfl⟩
abbrev main_v50 : Ref sig .tc := ⟨.hbm, 76, rfl⟩
abbrev main_v51 : Ref sig .tc := ⟨.hbm, 77, rfl⟩
abbrev main_c_14 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_16 : Ref sig .tc := ⟨.hbm, 90, rfl⟩
abbrev main_v62 : Ref sig .tc := ⟨.hbm, 91, rfl⟩
abbrev main_v63 : Ref sig .tc := ⟨.hbm, 92, rfl⟩
abbrev main_c_17 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_18 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x1_S50000x1_1_0_0_1_n_n_wf : DotDims.WF S50000x128 S128x1 S50000x1 [1] [0] [0] [1] [] []
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelFrame.lean ====
/-
  The frame of the program: its one tiled matrix product, between the host operations that prepare its operands
  and the long stretch of host operations that consume its result.

  The product runs on a grid of ten points. At point t the pipeline hands the body rows 5000·t … 5000·t + 4999 of
  the 50000 × 128 input (a fresh block at every point), the whole 128 × 128 transposed weight (fetched once, at the
  first point, and found in place afterwards), and a staging buffer for the same rows of the result. The body reads
  the two input blocks, reads the output buffer without using what it read, and stores the product of the two
  blocks over the whole output buffer; so after the body the output buffer holds that product whatever it held
  before, and the inputs' buffers are as they were. Every point writes its block back, the blocks tile the result
  array, and nothing else of memory is touched: the region leaves every other buffer as it found it. The host
  operations after the region each write one buffer of their own — never an argument, never an array of the
  region — so the arguments end as launched, and every later value is the composition of those operations applied
  to the region's result.
-/
import proofs.«175230_j67147518705696_2_alg».proof.Proof.Gen.Kernel.Launch
import proofs.«175230_j67147518705696_2_alg».proof.Proof.Gen.Kernel.Skeleton
import proofs.«175230_j67147518705696_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The stretches of host operations after the region, in order: the attention weights and the node degrees, the
    first guarded reciprocal, the hyperedge degrees, the second guarded reciprocal, and the two rounds of
    gathering and accumulating with their scalings and the bias. -/
abbrev tailOps : List (List (HloOp τ sig (Elt F))) := [hostOps1, hostOps1_1, hostOps1_2, hostOps1_3, hostOps1_4]

/-- Core `c`'s buffer contents when the region is entered: the launch contents after the six host operations
    before it (the two rows of the index table, the transposed weight and its rounding). -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is the host operations before the region, the region, and the later stretches: it reduces to
    the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- A property of every operation of each later stretch is a property of every operation after the region. -/
theorem tail_forall (P : HloOp τ sig (Elt F) → Prop) (h1 : (hostOps1 (F := F)).Forall P) (h2 : (hostOps1_1 (F := F)).Forall P)
    (h3 : (hostOps1_2 (F := F)).Forall P) (h4 : (hostOps1_3 (F := F)).Forall P) (h5 : (hostOps1_4 (F := F)).Forall P) :
    ∀ ops ∈ (tailOps : List (List (HloOp τ sig (Elt F)))), ∀ op ∈ ops, P op := by
  intro ops hops op hop
  simp only [List.mem_cons, List.mem_nil_iff, or_false] at hops
  rcases hops with rfl | rfl | rfl | rfl | rfl
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop

/-- The later operations touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_forall _
    (List.forall_iff_forall_mem.mpr fun op h => Pipeline.sub_ucRefs op (List.forall_iff_forall_mem.mp hostOps1_sub op h))
    (List.forall_iff_forall_mem.mpr fun op h => Pipeline.sub_ucRefs op (List.forall_iff_forall_mem.mp hostOps1_1_sub op h))
    (List.forall_iff_forall_mem.mpr fun op h => Pipeline.sub_ucRefs op (List.forall_iff_forall_mem.mp hostOps1_2_sub op h))
    (List.forall_iff_forall_mem.mpr fun op h => Pipeline.sub_ucRefs op (List.forall_iff_forall_mem.mp hostOps1_3_sub op h))
    (List.forall_iff_forall_mem.mpr fun op h => Pipeline.sub_ucRefs op (List.forall_iff_forall_mem.mp hostOps1_4_sub op h))

/-- They allocate nothing. -/
theorem sfx_fresh : ∀ ops ∈ (tailOps : List (List (HloOp τ sig (Elt F)))), ∀ op ∈ ops, op.fresh = ∅ :=
  tail_forall _ hostOps1_fresh hostOps1_1_fresh hostOps1_2_fresh hostOps1_3_fresh hostOps1_4_fresh

/-- And none of them writes an array of the region: each writes only its own result buffer. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes :=
  tail_forall _ hostOps1_keeps hostOps1_1_keeps hostOps1_2_keeps hostOps1_3_keeps hostOps1_4_keeps

/-! ## The arguments before and after -/

/-- No host operation before the region writes the node features: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes the index table: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes the attention weight: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes the attention bias: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes the projection weight: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes the output bias: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes the index table, and it is no array the region writes back: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes the attention weight, and it is no array the region writes back: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes the attention bias, and it is no array the region writes back: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes the projection weight, and it is no array the region writes back: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes the output bias, and it is no array the region writes back: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows of the input: its current staging buffer holds the point's block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight: fetched at the first point only, its block index never moves, so its staging buffer holds the
    whole weight at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole 5000 × 128 staging buffer as a rectangle, and the whole 128 × 128 one. -/
abbrev rRows : Rect S5000x128 := Rect.unit (s := S5000x128) ![0, 0] S5000x128.size Facts₀.inb_S5000x128_S5000x128_0_0
abbrev rWeight : Rect S128x128 := Rect.unit (s := S128x128) ![0, 0] S128x128.size Facts₀.inb_S128x128_S128x128_0_0

/-- The output buffer after the body: the one store of the product of the two input blocks, over the whole buffer. -/
def outBlock (x0 : Vec F S5000x128 .f32) (x1 : Vec F S128x128 .bf16) : Vec F S5000x128 .f32 :=
  View.canon [⟨rRows, k0_pay1 (View.ld x0 rRows) (View.ld x1 rWeight)⟩]

/-- The store covers the buffer. -/
theorem cover_out (p0 : Vec F S5000x128 .f32) (y : S5000x128.Idx) :
    ∃ pc ∈ ([⟨rRows, p0⟩] : List (View.Piece (Elt F) S5000x128 .f32)), y ∈ pc.1.set :=
  View.cover_of_tiled [⟨rRows, p0⟩] S5000x128.size (by rfl) y

set_option maxHeartbeats 1000000 in
/-- The body on whole staging buffers, the inputs' at `x0`, `x1` and the output's at anything, runs to the
    continuation holding the inputs' as they were and the output's at the product. -/
theorem sound_kernel (c : Dev nD) (E : Set ℕ) (i : grid0.Coords) (arg1 : Memref sig .tc .vmem S5000x128 .f32) (harg1 : arg1.IsWhole)
    (arg2 : Memref sig .tc .vmem S128x128 .bf16) (harg2 : arg2.IsWhole) (arg3 : Memref sig .tc .vmem S5000x128 .f32) (harg3 : arg3.IsWhole)
    (x0 : Vec F S5000x128 .f32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlock x0 x1)) -∗ K ⟨⟩))
      ⊢ wp frame (wpE (defs₀ (F := F)) Variants.none c none) E (cc0__lin_kernel i arg1 harg1 arg2 harg2 arg3 harg3) K := by
  simp only [cc0__lin_kernel_eq_skeleton]; unfold cc0__lin_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data on core `c`: the arrays as the region finds them; after the body at point `t` each input's
    buffer at its block and the output's at the product of the input blocks; the invariant the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's run applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, every array of the
    region ends at what the write-backs left, and every other unscoped buffer as the later operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The run with the result named and the arguments unchanged: the result is the later operations' composition
    over the region's arrays, each argument is as launched. -/
theorem run_named : θ_run defs (onTc (τ := τ) (main (F := F))) ⟨m, fun _ => 0, ρ⟩ (fun r => ∀ c : Dev nD,
      r.2.mem ((c.tc : Thread nD τ).loc main_v71) = Pipeline.afterTail₀ cfgs (dats m) 0 (V0 m) tailOps c main_v71
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v71 (Pipeline.mem_restRefs_of main_v71 (by decide) (by decide)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

/-- The frame: the program runs to the end and its six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Around

end
-- ==== Proof.KernelIdealFrame.lean ====
/-
  The frame of the program: its one tiled matrix product, between the host operations that prepare its operands
  and the long stretch of host operations that consume its result.

  The product runs on a grid of ten points. At point t the pipeline hands the body rows 5000·t … 5000·t + 4999 of
  the 50000 × 128 input (a fresh block at every point), the whole 128 × 128 transposed weight (fetched once, at the
  first point, and found in place afterwards), and a staging buffer for the same rows of the result. The body reads
  the two input blocks, reads the output buffer without using what it read, and stores the product of the two
  blocks over the whole output buffer; so after the body the output buffer holds that product whatever it held
  before, and the inputs' buffers are as they were. Every point writes its block back, the blocks tile the result
  array, and nothing else of memory is touched: the region leaves every other buffer as it found it. The host
  operations after the region each write one buffer of their own — never an argument, never an array of the
  region — so the arguments end as launched, and every later value is the composition of those operations applied
  to the region's result.
-/
import proofs.«175230_j67147518705696_2_alg».proof.Proof.Gen.KernelIdeal.Launch
import proofs.«175230_j67147518705696_2_alg».proof.Proof.Gen.KernelIdeal.Skeleton
import proofs.«175230_j67147518705696_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The stretches of host operations after the region, in order: the attention weights and the node degrees, the
    first guarded reciprocal, the hyperedge degrees, the second guarded reciprocal, and the two rounds of
    gathering and accumulating with their scalings and the bias. -/
abbrev tailOps : List (List (HloOp τ sig (Elt F))) := [hostOps1, hostOps1_1, hostOps1_2, hostOps1_3, hostOps1_4]

/-- Core `c`'s buffer contents when the region is entered: the launch contents after the six host operations
    before it (the two rows of the index table, the transposed weight and its rounding). -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is the host operations before the region, the region, and the later stretches: it reduces to
    the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- A property of every operation of each later stretch is a property of every operation after the region. -/
theorem tail_forall (P : HloOp τ sig (Elt F) → Prop) (h1 : (hostOps1 (F := F)).Forall P) (h2 : (hostOps1_1 (F := F)).Forall P)
    (h3 : (hostOps1_2 (F := F)).Forall P) (h4 : (hostOps1_3 (F := F)).Forall P) (h5 : (hostOps1_4 (F := F)).Forall P) :
    ∀ ops ∈ (tailOps : List (List (HloOp τ sig (Elt F)))), ∀ op ∈ ops, P op := by
  intro ops hops op hop
  simp only [List.mem_cons, List.mem_nil_iff, or_false] at hops
  rcases hops with rfl | rfl | rfl | rfl | rfl
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop

/-- The later operations touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_forall _
    (List.forall_iff_forall_mem.mpr fun op h => Pipeline.sub_ucRefs op (List.forall_iff_forall_mem.mp hostOps1_sub op h))
    (List.forall_iff_forall_mem.mpr fun op h => Pipeline.sub_ucRefs op (List.forall_iff_forall_mem.mp hostOps1_1_sub op h))
    (List.forall_iff_forall_mem.mpr fun op h => Pipeline.sub_ucRefs op (List.forall_iff_forall_mem.mp hostOps1_2_sub op h))
    (List.forall_iff_forall_mem.mpr fun op h => Pipeline.sub_ucRefs op (List.forall_iff_forall_mem.mp hostOps1_3_sub op h))
    (List.forall_iff_forall_mem.mpr fun op h => Pipeline.sub_ucRefs op (List.forall_iff_forall_mem.mp hostOps1_4_sub op h))

/-- They allocate nothing. -/
theorem sfx_fresh : ∀ ops ∈ (tailOps : List (List (HloOp τ sig (Elt F)))), ∀ op ∈ ops, op.fresh = ∅ :=
  tail_forall _ hostOps1_fresh hostOps1_1_fresh hostOps1_2_fresh hostOps1_3_fresh hostOps1_4_fresh

/-- And none of them writes an array of the region: each writes only its own result buffer. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes :=
  tail_forall _ hostOps1_keeps hostOps1_1_keeps hostOps1_2_keeps hostOps1_3_keeps hostOps1_4_keeps

/-! ## The arguments before and after -/

/-- No host operation before the region writes the node features: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes the index table: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes the attention weight: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes the attention bias: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes the projection weight: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes the output bias: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes the index table, and it is no array the region writes back: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes the attention weight, and it is no array the region writes back: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes the attention bias, and it is no array the region writes back: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes the projection weight, and it is no array the region writes back: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes the output bias, and it is no array the region writes back: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows of the input: its current staging buffer holds the point's block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight: fetched at the first point only, its block index never moves, so its staging buffer holds the
    whole weight at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole 5000 × 128 staging buffer as a rectangle, and the whole 128 × 128 one. -/
abbrev rRows : Rect S5000x128 := Rect.unit (s := S5000x128) ![0, 0] S5000x128.size Facts₀.inb_S5000x128_S5000x128_0_0
abbrev rWeight : Rect S128x128 := Rect.unit (s := S128x128) ![0, 0] S128x128.size Facts₀.inb_S128x128_S128x128_0_0

/-- The output buffer after the body: the one store of the product of the two input blocks, over the whole buffer. -/
def outBlock (x0 : Vec F S5000x128 .f32) (x1 : Vec F S128x128 .bf16) : Vec F S5000x128 .f32 :=
  View.canon [⟨rRows, k0_pay1 (View.ld x0 rRows) (View.ld x1 rWeight)⟩]

/-- The store covers the buffer. -/
theorem cover_out (p0 : Vec F S5000x128 .f32) (y : S5000x128.Idx) :
    ∃ pc ∈ ([⟨rRows, p0⟩] : List (View.Piece (Elt F) S5000x128 .f32)), y ∈ pc.1.set :=
  View.cover_of_tiled [⟨rRows, p0⟩] S5000x128.size (by rfl) y

set_option maxHeartbeats 1000000 in
/-- The body on whole staging buffers, the inputs' at `x0`, `x1` and the output's at anything, runs to the
    continuation holding the inputs' as they were and the output's at the product. -/
theorem sound_kernel (c : Dev nD) (E : Set ℕ) (i : grid0.Coords) (arg1 : Memref sig .tc .vmem S5000x128 .f32) (harg1 : arg1.IsWhole)
    (arg2 : Memref sig .tc .vmem S128x128 .bf16) (harg2 : arg2.IsWhole) (arg3 : Memref sig .tc .vmem S5000x128 .f32) (harg3 : arg3.IsWhole)
    (x0 : Vec F S5000x128 .f32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlock x0 x1)) -∗ K ⟨⟩))
      ⊢ wp frame (wpE (defs₀ (F := F)) Variants.none c none) E (cc0__lin_kernel i arg1 harg1 arg2 harg2 arg3 harg3) K := by
  simp only [cc0__lin_kernel_eq_skeleton]; unfold cc0__lin_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data on core `c`: the arrays as the region finds them; after the body at point `t` each input's
    buffer at its block and the output's at the product of the input blocks; the invariant the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's run applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, every array of the
    region ends at what the write-backs left, and every other unscoped buffer as the later operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The run with the result named and the arguments unchanged: the result is the later operations' composition
    over the region's arrays, each argument is as launched. -/
theorem run_named : θ_run defs (onTc (τ := τ) (main (F := F))) ⟨m, fun _ => 0, ρ⟩ (fun r => ∀ c : Dev nD,
      r.2.mem ((c.tc : Thread nD τ).loc main_v71) = Pipeline.afterTail₀ cfgs (dats m) 0 (V0 m) tailOps c main_v71
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v71 (Pipeline.mem_restRefs_of main_v71 (by decide) (by decide)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

/-- The frame: the program runs to the end and its six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Around

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.Products.lean ====
/-
  The projection x · wᵀ read at an index, on both sides.

  The kernel multiplies a 5000 × 128 block of x by the 128 × 128 matrix wᵀ (transposed, and its format changed, before
  the call) into a zero accumulator; the reference multiplies the whole 50000 × 128 array x by wᵀ in one product. On the
  extended reals a change of format is the identity and a plain [a, c] × [c, b] product at (p, q) is the sum over k of
  lhs (p, k) · rhs (k, q); the transposed matrix at (k, q) is w at (q, k). So both sides read, at row r and column q,
  ∑ k, x (r, k) · w (q, k).
-/
import proofs.«175230_j67147518705696_2_alg».proof.Proof.Gen.KernelIdeal.Skeleton
import proofs.«175230_j67147518705696_2_alg».proof.Proof.Gen.ReferenceIdeal
import Idealize.ShloMosaic.PureOps.Ideal.Laws
import Idealize.ShloMosaic.Lib.ValueIdx
import Idealize.ShloMosaic.Lib.Pipeline.Value
import proofs.«175230_j67147518705696_2_alg».proof.Proof.LibPlainDot

noncomputable section

namespace Cert.Products

open Idealize.ShloMosaic Idealize.ShloMosaic.ValueIdx
open scoped BigOperators

/-- A square matrix transposed reads, at (k, q), the operand at (q, k). -/
theorem transpose_sq_apply {α : Type} {a : Nat} (x : (⟨2, ![a, a]⟩ : Shape).Idx → α)
    (h : (⟨2, ![a, a]⟩ : Shape).Transposes [1, 0] ⟨2, ![a, a]⟩) (k q : Fin a) :
    transpose ⟨2, ![a, a]⟩ [1, 0] x h (ix2 k q) = x (ix2 q k) :=
  transpose_apply _ x h _ _ fun c => match c with | ⟨0, _⟩ => rfl | ⟨1, _⟩ => rfl

/-- The weight as the kernel receives it — transposed, then its format changed — at (k, q): the weight at (q, k). -/
theorem weight_apply (x4 : FVec Ideal Cert.KernelIdeal.S128x128 .f32) (k q : Fin 128) :
    truncf (F := Ideal) .bf16 (transpose Cert.KernelIdeal.S128x128 [1, 0] x4
        Cert.KernelIdeal.Facts₀.transposes_S128x128_S128x128_1_0) Cert.KernelIdeal.Facts₀.bitsLt_bf16_f32 (ix2 k q)
      = x4 (ix2 q k) :=
  transpose_sq_apply x4 _ k q

/-- The reference's projection at (n, q): the sum over the features of x (n, k) · w (q, k). -/
theorem ref_proj_apply (x0 : FVec Ideal Cert.ReferenceIdeal.S50000x128 .f32)
    (x4 : FVec Ideal Cert.ReferenceIdeal.S128x128 .f32) (n : Fin 50000) (q : Fin 128) :
    Host.dotGeneral (F := Ideal) Cert.ReferenceIdeal.dot_S50000x128_S128x128_S50000x128_1_0_0_1_n_n none x0
        (transpose Cert.ReferenceIdeal.S128x128 [1, 0] x4 Cert.ReferenceIdeal.Facts₀.transposes_S128x128_S128x128_1_0)
        (ix2 n q)
      = ∑ k : Fin 128, x0 (ix2 n k) * x4 (ix2 q k) := by
  refine (Cert.Lib.PlainDot.dotGeneral_apply (a := 50000) (c := 128) (b := 128)
    Cert.ReferenceIdeal.Facts₀.dot_S50000x128_S128x128_S50000x128_1_0_0_1_n_n_wf none x0 _ n q).trans ?_
  exact Finset.sum_congr rfl fun k _ => congrArg (x0 (ix2 n k) * ·) (transpose_sq_apply x4 _ k q)

/-- The kernel's stored value at (p, q) of a block: the sum over the features of the x block at (p, k) times the
    received weight at (k, q). -/
theorem pay_apply (x0 : Vec Ideal Cert.KernelIdeal.S5000x128 .f32) (x1 : Vec Ideal Cert.KernelIdeal.S128x128 .bf16)
    (p : Fin 5000) (q : Fin 128) :
    Cert.KernelIdeal.Gen.k0_pay1 (F := Ideal) x0 x1 (ix2 p q) = ∑ k : Fin 128, x0 (ix2 p k) * x1 (ix2 k q) := by
  unfold Cert.KernelIdeal.Gen.k0_pay1
  rw [shapeCast_self]
  exact Cert.Lib.PlainDot.matmul_zero_apply (a := 5000) (c := 128) (b := 128)
    Cert.KernelIdeal.Facts₀.dot_S5000x128_S128x128_S5000x128_1_0_0_1_n_n_wf none _ x1 p q

end Cert.Products

end
-- ==== Proof.KernelIdealArray.lean ====
/-
  The region's result array after all ten grid points is the whole projection x · wᵀ.

  Point t of the grid writes back rows 5000·t … 5000·t + 4999 of the 50000 × 128 result: the product of the block of x
  at those rows with the 128 × 128 matrix the host prepared before the call, which is the weight transposed (its change
  of format is the identity on the extended reals). A block's coordinate on an axis is the block index times the
  block's size plus the coordinate inside the block; the index maps send t to (t, 0) for x and for the result and to
  (0, 0) for the weight. So the entry point t writes at (p, q) is ∑ k, x (5000·t + p, k) · w (q, k): block t of one
  function of the launched arguments. Every point writes back, row r lies in the block of point r / 5000, so the ten
  blocks tile the array and it ends holding that function everywhere.
-/
import proofs.«175230_j67147518705696_2_alg».proof.Proof.KernelIdealFrame
import proofs.«175230_j67147518705696_2_alg».proof.Proof.Products
import Idealize.ShloMosaic.Lib.Pipeline.Value
import Idealize.ShloMosaic.Lib.ValueIdx
import Idealize.ShloMosaic.Lib.StableHlo.Run

noncomputable section

namespace Cert.KernelIdeal.ArrayOf

open Cert.KernelIdeal Cert.KernelIdeal.Gen Cert.KernelIdeal.Around Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-- The projection: entry (n, q) is the sum over the 128 features of x (n, k) · w (q, k). -/
def proj (X : FVec Ideal S50000x128 .f32) (W4 : FVec Ideal S128x128 .f32) : FVec Ideal S50000x128 .f32 :=
  fun i => ∑ k : Fin 128, X (ix2 (i 0) k) * W4 (ix2 (i 1) k)

/-- The origin of a whole staging buffer, as a constant function. -/
theorem origin_zero : (![0, 0] : Fin 2 → Nat) = fun _ => 0 := funext fun a => by fin_cases a <;> rfl

/-- The index maps at every grid point: x and the result move with the point along the rows, the weight stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The weight as the region finds it: the host transposes it and changes its format before the call. -/
theorem weight_entry (c : Dev nD) :
    (V m c main_v5 : S128x128.Idx → Ideal .bf16)
      = truncf (F := Ideal) .bf16 (transpose S128x128 [1, 0] (m ((c : Thread nD τ).loc main_arg4))
          Facts₀.transposes_S128x128_S128x128_1_0) Facts₀.bitsLt_bf16_f32 := by
  dsimp only [Around.V, Around.V0]
  simp only [hostOps0, List.flatten_cons, List.flatten_nil, List.append_nil]
  after_results

/-- One entry of one block, for any two blocks: if the first is rows 5000·T … of X and the second is the
    transposed weight, the product of the blocks at (p, q) is the projection at (5000·T + p, q). -/
theorem block_entry (X : FVec Ideal S50000x128 .f32) (W4 : FVec Ideal S128x128 .f32)
    (x0 : Vec Ideal S5000x128 .f32) (x1 : Vec Ideal S128x128 .bf16) (T : Nat) (hT : T < 10)
    (hx0 : ∀ (p : Fin 5000) (k : Fin 128), x0 (ix2 p k) = X (ix2 ⟨T * 5000 + p.val, by omega⟩ k))
    (hx1 : ∀ (k q : Fin 128), x1 (ix2 k q) = W4 (ix2 q k)) (p : Fin 5000) (q : Fin 128) :
    k0_pay1 (F := Ideal) x0 x1 (ix2 p q) = proj X W4 (ix2 ⟨T * 5000 + p.val, by omega⟩ q) := by
  rw [Cert.Products.pay_apply]
  unfold proj
  exact Finset.sum_congr rfl fun k _ => by rw [hx0, hx1]

/-- The block of x the body is handed at point t, at (p, k): row 5000·t + p of x as launched. -/
theorem rows_block (c : Dev nD) (t : Fin cfg0.N) (ht : t.val < 10) (p : Fin 5000) (k : Fin 128) :
    iblk m c 0 t (ix2 p k) = m ((c : Thread nD τ).loc main_arg0) (ix2 ⟨t.val * 5000 + p.val, by omega⟩ k) := by
  obtain ⟨e0, e1, -, -, -, -⟩ := index_maps t
  show V m c main_arg0 (((cfg0.win 0).blk t).view.emb (ix2 p k)) = _
  rw [V_main_arg0]
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The block of the received weight at any point is the whole of it: at (k, q), the weight at (q, k). -/
theorem weight_block (c : Dev nD) (t : Fin cfg0.N) (k q : Fin 128) :
    iblk m c 1 t (ix2 k q) = m ((c : Thread nD τ).loc main_arg4) (ix2 q k) := by
  obtain ⟨-, -, e2, e3, -, -⟩ := index_maps t
  show V m c main_v5 (((cfg0.win 1).blk t).view.emb (ix2 k q)) = _
  have hemb : ((cfg0.win 1).blk t).view.emb (ix2 k q) = ix2 k q := by
    refine funext fun a => Fin.ext ?_
    match a with
    | ⟨0, _⟩ => show win0_1.index t (0 : Fin 2) * 128 + 1 * k.val = k.val; omega
    | ⟨1, _⟩ => show win0_1.index t (1 : Fin 2) * 128 + 1 * q.val = q.val; omega
  rw [hemb, weight_entry]
  exact Cert.Products.weight_apply _ k q

/-- What point t writes back is block t of the projection of the arguments as launched. -/
theorem flushed_eq (c : Dev nD) (t : Fin cfg0.N) :
    (dats m 0 c).flushed 2 t = ((cfg0.win 2).blk t).view.read (Elt Ideal)
      (proj (m ((c : Thread nD τ).loc main_arg0)) (m ((c : Thread nD τ).loc main_arg4))) := by
  show (cfg0.win 2).cut (grid0.coords t) ((dats m 0 c).after 2 t) = _
  rw [after0_2]
  unfold outBlock
  rw [View.canon_unit_zero origin_zero]
  simp only [View.ld_unit_zero (S := S5000x128) origin_zero, View.ld_unit_zero (S := S128x128) origin_zero]
  have ht : t.val < 10 := by have h := t.isLt; have e : cfg0.N = 10 := N_0; omega
  obtain ⟨-, -, -, -, e4, e5⟩ := index_maps t
  funext j
  obtain ⟨p, q, rfl⟩ : ∃ (p : Fin 5000) (q : Fin 128), j = ix2 p q := ⟨j 0, j 1, eq_ix2 j⟩
  refine (block_entry _ _ (iblk m c 0 t) (iblk m c 1 t) t.val ht (rows_block m c t ht) (weight_block m c t) p q).trans ?_
  show proj _ _ _ = proj _ _ (((cfg0.win 2).blk t).view.emb (ix2 p q))
  refine congrArg _ (funext fun a => Fin.ext ?_)
  match a with
  | ⟨0, _⟩ => show t.val * 5000 + p.val = win0_2.index t (0 : Fin 2) * 5000 + 1 * p.val; omega
  | ⟨1, _⟩ => show q.val = win0_2.index t (1 : Fin 2) * 128 + 1 * q.val; omega

/-- An index of the array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v6).slice (win0_2.rect t)).set ↔ _
  rw [View.set_slice_whole, Rect.mem_set_unit]
  exact Iff.rfl

/-- The ten blocks tile the array: row r is in the block of point r / 5000, and every point writes back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by have e : cfg0.N = 10 := N_0; omega⟩, rfl⟩
  obtain ⟨-, -, -, -, e4, e5⟩ := index_maps t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The region's result array after the ten points is the whole projection: entry (n, q) is ∑ k, x (n, k) · w (q, k). -/
theorem final_xl (c : Dev nD) : (dats m 0 c).arrAt 2 cfg0.N
    = proj (m ((c : Thread nD τ).loc main_arg0)) (m ((c : Thread nD τ).loc main_arg4)) :=
  (dats m 0 c).arrAt_eq_of_cover 2 (proj _ _) (fun t _ => flushed_eq m c t) cover

end Cert.KernelIdeal.ArrayOf

end
-- ==== Proof.LibGatherScatter.lean ====
/-
  Rows gathered and rows accumulated through a column of indices, read at an index.

  A column of `R` integer words, held as an `R × 1` array, names one row of an `N`-row array for each of `R` positions.
  Gathering rows through it reads, at position `e`, row `clamp(word e)` of the operand: the word is read as a signed
  integer and clamped into `[0, N − 1]`. Accumulating rows through it adds the update's row `e` into row `word e` of
  the operand when the word, read signed, lies in `[0, N)`, and drops it otherwise (no clamping). At the exact values the
  accumulated array holds, at `(n, q)`, the operand's entry plus the sum of the updates' entries `(e, q)` over the
  positions `e` whose word names row `n`. The same for a length-`N` vector gathered or accumulated through the column.
  For any extents; the printed records with these lists are these by reflexivity.
-/
import Idealize.ShloMosaic.PureOps.Ideal
import Idealize.ShloMosaic.Lib.ValueIdx
import Idealize.ShloMosaic.Lib.Pipeline.Value

noncomputable section

open scoped BigOperators

namespace Cert.Lib.GatherScatter

open Idealize.ShloMosaic Idealize.ShloMosaic.ValueIdx

variable {N C R w : Nat}

/-- The word the column holds for position `e`, read as a signed integer. -/
def colInt (idx : IVec ⟨2, ![R, 1]⟩ w) (e : Fin R) : Int := (idx (ix2 e (0 : Fin 1))).toInt

/-- The row a gather reads for position `e`: the word read signed and clamped into `[0, N − 1]`. -/
def gatherRow (hN : 0 < N) (idx : IVec ⟨2, ![R, 1]⟩ w) (e : Fin R) : Fin N :=
  ⟨min (colInt idx e).toNat (N - 1), by omega⟩

/-- The row an accumulation lands on for position `e`: the word read signed when it lies in `[0, N)`, none otherwise. -/
def scatterRow (N : Nat) (idx : IVec ⟨2, ![R, 1]⟩ w) (e : Fin R) : Option (Fin N) :=
  if h : 0 ≤ colInt idx e ∧ colInt idx e < (N : Int) then some ⟨(colInt idx e).toNat, by omega⟩ else none

/-- A position whose word names row `n` for the accumulation names the same row for a gather. -/
theorem gatherRow_of_scatterRow (hN : 0 < N) (idx : IVec ⟨2, ![R, 1]⟩ w) (e : Fin R) (n : Fin N)
    (h : scatterRow N idx e = some n) : gatherRow hN idx e = n := by
  unfold scatterRow at h
  split at h
  · rename_i hr
    have := Option.some.inj h
    subst this
    refine Fin.ext ?_
    show min (colInt idx e).toNat (N - 1) = (colInt idx e).toNat
    omega
  · exact absurd h (by simp)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- A length-`R` vector laid out as an `R × 1` column reads, at `(e, ·)`, the vector at `e`. -/
theorem column_apply {α : Type} (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) := by
  refine broadcastInDim_apply _ h v (ix2 e u) (ix1 e) fun ax => ?_
  match ax with
  | ⟨0, _⟩ =>
    show e.val = if R = 1 then 0 else e.val
    split
    · have := e.isLt; omega
    · rfl

/-! ## Gathering rows -/

/-- The dimension numbers of a row gather `[N, C]` through an `R × 1` column, result `[R, C]`. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(e, q)`: the operand at `(row e, q)`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowGatherDims N C R wf) x idx (ix2 e q) = x (ix2 (gatherRow hN idx e) q) := by
  unfold Host.gather
  congr 1
  funext a
  refine Fin.ext ?_
  match a with
  | ⟨0, _⟩ =>
    show (rowGatherDims N C R wf).start (ix2 e q) idx 0 + (rowGatherDims N C R wf).batchCoord (ix2 e q) 0
      + (rowGatherDims N C R wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 e q) ⟨List.idxOf (0 : Fin 2) (rowGatherDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C R wf).start (ix2 e q) idx 1 + (rowGatherDims N C R wf).batchCoord (ix2 e q) 1
      + (rowGatherDims N C R wf).offCoord (ix2 e q) 1 = q.val
    rw [GatherDims.batchCoord_eq_zero _ _ _ List.not_mem_nil]
    have hs : (rowGatherDims N C R wf).start (ix2 e q) idx 1 = 0 := by
      unfold GatherDims.start
      rw [dif_neg (show ¬ (1 : Fin 2) ∈ (rowGatherDims N C R wf).startIndexMap from
        fun h => absurd (show (1 : Fin 2) = 0 from List.mem_singleton.mp h) (by decide))]
    rw [hs]
    simp only [Nat.add_zero, Nat.zero_add]
    rfl

/-! ## Gathering entries of a vector -/

/-- The dimension numbers of a gather from a length-`N` vector through an `R × 1` column, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather at `e`: the operand at `row e`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (gatherRow hN idx e)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Accumulating rows -/

/-- The dimension numbers of a row accumulation into `[N, C]` through an `R × 1` column, updates `[R, C]`. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable (wf : ScatterDims.WF ⟨2, ![N, C]⟩ ⟨2, ![R, 1]⟩ ⟨2, ![R, C]⟩ [1] [0] [0] 1)

theorem rowScatter_start0 (idx : IVec ⟨2, ![R, 1]⟩ w) (e : Fin R) (q : Fin C) :
    (rowScatterDims N C R wf).start (ix2 e q) idx 0 = colInt idx e := by
  unfold ScatterDims.start
  rw [dif_pos (show (0 : Fin 2) ∈ (rowScatterDims N C R wf).scatterDimsToOperandDims from List.mem_singleton.mpr rfl)]
  have hsi : (rowScatterDims N C R wf).siIdx (ix2 e q) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowScatter_start1 (idx : IVec ⟨2, ![R, 1]⟩ w) (e : Fin R) (q : Fin C) :
    (rowScatterDims N C R wf).start (ix2 e q) idx 1 = 0 := by
  unfold ScatterDims.start
  rw [dif_neg (show ¬ (1 : Fin 2) ∈ (rowScatterDims N C R wf).scatterDimsToOperandDims from
    fun h => absurd (show (1 : Fin 2) = 0 from List.mem_singleton.mp h) (by decide))]

theorem rowScatter_window0 (e : Fin R) (q : Fin C) : (rowScatterDims N C R wf).window (ix2 e q) 0 = 0 := by
  unfold ScatterDims.window
  rw [dif_neg (show ¬ (0 : Fin 2) ∈ (rowScatterDims N C R wf).sKept from
    fun h => (mem_kept _ _).mp h (List.mem_singleton.mpr rfl))]

theorem rowScatter_window1 (e : Fin R) (q : Fin C) : (rowScatterDims N C R wf).window (ix2 e q) 1 = q.val := by
  unfold ScatterDims.window
  rw [dif_pos (show (1 : Fin 2) ∈ (rowScatterDims N C R wf).sKept from
    (mem_kept _ _).mpr fun h => absurd (show (1 : Fin 2) = 0 from List.mem_singleton.mp h) (by decide))]
  rfl

/-- Where the update's entry `(e, q)` lands: at `(row e, q)` when the word names a row, nowhere otherwise. -/
theorem rowScatter_resultIdx (idx : IVec ⟨2, ![R, 1]⟩ w) (e : Fin R) (q : Fin C) :
    (rowScatterDims N C R wf).resultIdx? (ix2 e q) idx = (scatterRow N idx e).map fun n => ix2 n q := by
  unfold ScatterDims.resultIdx? scatterRow
  by_cases h : 0 ≤ colInt idx e ∧ colInt idx e < (N : Int)
  · have hall : ∀ a, 0 ≤ (rowScatterDims N C R wf).start (ix2 e q) idx a + (rowScatterDims N C R wf).window (ix2 e q) a
        ∧ (rowScatterDims N C R wf).start (ix2 e q) idx a + (rowScatterDims N C R wf).window (ix2 e q) a
          < ((⟨2, ![N, C]⟩ : Shape).size a : Int) := by
      intro a
      match a with
      | ⟨0, _⟩ =>
        rw [show (⟨0, _⟩ : Fin 2) = 0 from rfl, rowScatter_start0, rowScatter_window0]
        show 0 ≤ colInt idx e + ((0 : Nat) : Int) ∧ colInt idx e + ((0 : Nat) : Int) < (N : Int)
        omega
      | ⟨1, _⟩ =>
        rw [show (⟨1, _⟩ : Fin 2) = 1 from rfl, rowScatter_start1, rowScatter_window1]
        show 0 ≤ (0 : Int) + (q.val : Int) ∧ (0 : Int) + (q.val : Int) < (C : Int)
        have := q.isLt
        omega
    rw [dif_pos hall, dif_pos h, Option.map_some]
    congr 1
    funext a
    refine Fin.ext ?_
    match a with
    | ⟨0, _⟩ =>
      show ((rowScatterDims N C R wf).start (ix2 e q) idx 0 + (rowScatterDims N C R wf).window (ix2 e q) 0).toNat = (colInt idx e).toNat
      rw [rowScatter_start0, rowScatter_window0]
      simp
    | ⟨1, _⟩ =>
      show ((rowScatterDims N C R wf).start (ix2 e q) idx 1 + (rowScatterDims N C R wf).window (ix2 e q) 1).toNat = q.val
      rw [rowScatter_start1, rowScatter_window1]
      simp
  · rw [dif_neg h, Option.map_none, dif_neg]
    intro hall
    apply h
    have h0 := hall 0
    rw [rowScatter_start0, rowScatter_window0] at h0
    have h0' : 0 ≤ colInt idx e + ((0 : Nat) : Int) ∧ colInt idx e + ((0 : Nat) : Int) < (N : Int) := h0
    omega

/-- THE ACCUMULATION AT `(n, q)`, at the exact values: the operand's entry plus the updates' entries `(e, q)` over
    the positions `e` whose word names row `n`. -/
theorem rowScatterAdd_apply {φ : FTy} (x : FVec Ideal ⟨2, ![N, C]⟩ φ) (idx : IVec ⟨2, ![R, 1]⟩ w)
    (upd : FVec Ideal ⟨2, ![R, C]⟩ φ) (n : Fin N) (q : Fin C) :
    Host.scatterAdd (rowScatterDims N C R wf) x idx upd (ix2 n q)
      = x (ix2 n q) + ∑ e ∈ Finset.univ.filter (fun e => scatterRow N idx e = some n), upd (ix2 e q) := by
  show Ideal.hostScatterAdd (rowScatterDims N C R wf) x idx upd (ix2 n q) = _
  unfold Ideal.hostScatterAdd
  congr 1
  rw [Finset.sum_filter, sum_idx2, Finset.sum_filter]
  refine Finset.sum_congr rfl fun e _ => ?_
  simp only [rowScatter_resultIdx]
  cases hsr : scatterRow N idx e with
  | none => simp
  | some n' =>
    simp only [Option.map_some, Option.some.injEq, ix2_inj]
    by_cases hn : n' = n
    · subst hn
      simp only [true_and, if_true]
      exact (Finset.sum_ite_eq' Finset.univ q fun c => upd (ix2 e c)).trans (if_pos (Finset.mem_univ q))
    · simp only [hn, false_and, if_false, Finset.sum_const_zero]

end RowScatter

/-! ## Accumulating entries of a vector -/

/-- The dimension numbers of an accumulation into a length-`N` vector through an `R × 1` column, updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

end Cert.Lib.GatherScatter

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibScatterNonneg.lean ====
/-
  Reusable lemmas: a float scatter at the exact (extended-real) reading keeps its entries nonnegative reals.

  * `NonnegReal e`: the extended real `e` is a real number `r` with `0 ≤ r`; closed under `0`, `+` and finite sums.
  * `scatterAdd_nonnegReal`: the accumulating scatter (`Host.scatterAdd`) of an operand and updates that are all
    nonnegative reals is a nonnegative real at every index, whatever the dimension numbers and the scatter indices:
    each entry is the operand's entry plus a finite sum of update entries.
  * `scatter_induction`: for the folding scatter (`Host.scatter`) with any body `f`, a property that holds of every
    operand entry and every update entry, and that `f` preserves, holds of every entry of the result.
  * `scatter_set_mem`: with the body that returns the update (`fun _ b => b`), every entry of the result is an entry of
    the operand or an entry of the updates.
-/
import Idealize.ShloMosaic.PureOps.Ideal

open Idealize.ShloMosaic

noncomputable section

namespace Cert.LibScatterNonneg

/-- The extended real `e` is a nonnegative real number. -/
def NonnegReal (e : EReal) : Prop := ∃ r : ℝ, 0 ≤ r ∧ e = ((r : ℝ) : EReal)

theorem NonnegReal.zero : NonnegReal 0 := ⟨0, le_refl _, by simp⟩

theorem NonnegReal.coe {r : ℝ} (h : 0 ≤ r) : NonnegReal ((r : ℝ) : EReal) := ⟨r, h, rfl⟩

theorem NonnegReal.natCast (n : Nat) : NonnegReal (((n : ℝ) : ℝ) : EReal) := ⟨(n : ℝ), Nat.cast_nonneg n, rfl⟩

theorem NonnegReal.add {a b : EReal} (ha : NonnegReal a) (hb : NonnegReal b) : NonnegReal (a + b) := by
  obtain ⟨r, hr, rfl⟩ := ha
  obtain ⟨t, ht, rfl⟩ := hb
  exact ⟨r + t, add_nonneg hr ht, (EReal.coe_add r t).symm⟩

theorem NonnegReal.sum {ι : Type} (S : Finset ι) (g : ι → EReal) (h : ∀ j ∈ S, NonnegReal (g j)) :
    NonnegReal (∑ j ∈ S, g j) := by
  classical
  induction S using Finset.induction_on with
  | empty => simpa using NonnegReal.zero
  | insert a S ha ih =>
    rw [Finset.sum_insert ha]
    exact (h a (Finset.mem_insert_self a S)).add (ih fun j hj => h j (Finset.mem_insert_of_mem hj))

/-- The accumulating float scatter of nonnegative reals into nonnegative reals is a nonnegative real at every
    index: the entry is the operand's plus the sum of the updates landing on it. -/
theorem scatterAdd_nonnegReal {φ : FTy} {s si u : Shape} {w : Nat} (d : ScatterDims s si u) (x : FVec Ideal s φ)
    (idx : IVec si w) (upd : FVec Ideal u φ) (hx : ∀ i, NonnegReal (x i)) (hu : ∀ j, NonnegReal (upd j))
    (i : s.Idx) : NonnegReal (Host.scatterAdd d x idx upd i) := by
  show NonnegReal (x i + ∑ j ∈ Finset.univ.filter (fun j => d.resultIdx? j idx = some i), upd j)
  exact (hx i).add (NonnegReal.sum _ _ fun j _ => hu j)

/-- A property of every operand entry and every update entry that the body preserves holds of every entry of
    the folding scatter's result. -/
theorem scatter_induction {α : Type} {s si u : Shape} {w : Nat} (d : ScatterDims s si u) (f : α → α → α)
    (P : α → Prop) (x : s.Idx → α) (idx : IVec si w) (upd : u.Idx → α) (hx : ∀ i, P (x i)) (hu : ∀ j, P (upd j))
    (hf : ∀ a b, P a → P b → P (f a b)) (i : s.Idx) : P (Host.scatter d f x idx upd i) := by
  unfold Host.scatter
  generalize List.finRange u.numel = L
  revert i
  induction L generalizing x with
  | nil => intro i; exact hx i
  | cons n L ih =>
    rw [List.foldl_cons]
    apply ih
    intro i
    cases hres : d.resultIdx? (u.rowMajor.symm n) idx with
    | none => exact hx i
    | some k =>
      show P (if i = k then f (x k) (upd (u.rowMajor.symm n)) else x i)
      split
      · exact hf _ _ (hx k) (hu _)
      · exact hx i

/-- With the body that returns the update, every entry of the folding scatter's result is an entry of the operand
    or an entry of the updates. -/
theorem scatter_set_mem {α : Type} {s si u : Shape} {w : Nat} (d : ScatterDims s si u) (x : s.Idx → α)
    (idx : IVec si w) (upd : u.Idx → α) (i : s.Idx) :
    (∃ i', Host.scatter d (fun _ b => b) x idx upd i = x i') ∨ (∃ j, Host.scatter d (fun _ b => b) x idx upd i = upd j) :=
  scatter_induction d (fun _ b => b) (fun a => (∃ i', a = x i') ∨ (∃ j, a = upd j)) x idx upd
    (fun i => Or.inl ⟨i, rfl⟩) (fun j => Or.inr ⟨j, rfl⟩) (fun _ _ _ hb => hb) i

end Cert.LibScatterNonneg
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.HoistLaw.lean ====
/-
  A per-row scale hoisted out of a segment sum, and the facts about index words and degrees that go with it.

  A column of R integer words names, for each position, one row of an N-row array. Accumulating rows through the
  column adds row j of the updates into the row the word of j names (when the word, read signed, lies in [0, N)).
  With a length-N vector of scales s and an N × C array x, two programs form the same array:

    * scale inside:  at (n, q), the sum over the positions j whose word names row n of
                     s (the row a second column names for j) · x (the row a third column names for j, q);
    * scale outside: at (n, q), s n times the sum over the same positions of x (that row, q).

  They agree when the second column names, at every position the first column sends to row n, that same row n, and
  when s and x hold real numbers: then the left side is a finite sum of products of reals with one common factor, and
  the factor comes out by distributivity of the reals. (On the extended reals distributivity fails at the infinities,
  which is why the entries are asked to be real.)

  The second column is the first one after the usual wrap of a negative index: word + N where the word is negative,
  the word itself otherwise. A position whose raw word names row n has a word that is not negative, so the wrap leaves
  it alone and the gather reads row n.

  The scales are inverse degrees: where(B > 0, 1 / B, 0) of a count B of nonnegative reals, which is a real number
  everywhere: the reciprocal of a positive real, or zero.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«175230_j67147518705696_2_alg».proof.Proof.LibGatherScatter
import proofs.«175230_j67147518705696_2_alg».proof.Proof.LibRowBroadcasts
import proofs.«175230_j67147518705696_2_alg».proof.Proof.LibScatterNonneg
import proofs.«175230_j67147518705696_2_alg».proof.Proof.LibERealSums

noncomputable section

open scoped BigOperators

namespace Cert.HoistLaw

open Idealize.ShloMosaic Idealize.ShloMosaic.ValueIdx Cert.Lib.GatherScatter

/-! ## A finite sum of products of reals is a real -/

/-- A finite sum of products of real numbers, taken in the extended reals, is a real number. -/
theorem sum_mul_real {K : Nat} (a b : Fin K → EReal) (ha : ∀ k, ∃ r : ℝ, a k = (r : EReal))
    (hb : ∀ k, ∃ r : ℝ, b k = (r : EReal)) : ∃ r : ℝ, (∑ k : Fin K, a k * b k) = (r : EReal) := by
  choose f hf using ha
  choose g hg using hb
  refine ⟨∑ k : Fin K, f k * g k, ?_⟩
  simp only [hf, hg, ← EReal.coe_mul]
  exact Cert.Lib.ERealSums.coe_sum_real Finset.univ fun k => f k * g k

/-! ## The scale hoisted out of the segment sum -/

/-- THE HOIST. The scale of row n times the accumulated rows equals the accumulation of the rows each scaled by the
    entry the normalised column names, when that column names row n wherever the raw column does and the scales and
    the rows are real numbers. -/
theorem hoist {N C R : Nat} (hN : 0 < N)
    (swf : ScatterDims.WF ⟨2, ![N, C]⟩ ⟨2, ![R, 1]⟩ ⟨2, ![R, C]⟩ [1] [0] [0] 1)
    (gwf : GatherDims.WF ⟨2, ![N, C]⟩ ⟨2, ![R, 1]⟩ ⟨2, ![R, C]⟩ [1] [0] [] [0] [] 1 ![1, C])
    (vwf : GatherDims.WF ⟨1, ![N]⟩ ⟨2, ![R, 1]⟩ ⟨1, ![R]⟩ [] [0] [] [0] [] 1 ![1])
    (hcN : (⟨1, ![N]⟩ : Shape).BroadcastsInDim ⟨2, ![N, 1]⟩ ![0])
    (hbN : (⟨2, ![N, 1]⟩ : Shape).BroadcastsInDim ⟨2, ![N, C]⟩ ![0, 1])
    (hcR : (⟨1, ![R]⟩ : Shape).BroadcastsInDim ⟨2, ![R, 1]⟩ ![0])
    (hbR : (⟨2, ![R, 1]⟩ : Shape).BroadcastsInDim ⟨2, ![R, C]⟩ ![0, 1])
    (Binv : FVec Ideal ⟨1, ![N]⟩ .f32) (xl zero : FVec Ideal ⟨2, ![N, C]⟩ .f32) (eS eG nG : IVec ⟨2, ![R, 1]⟩ 32)
    (hB : ∀ n : Fin N, ∃ r : ℝ, Binv (ix1 n) = (r : EReal))
    (hX : ∀ (n : Fin N) (q : Fin C), ∃ r : ℝ, xl (ix2 n q) = (r : EReal))
    (hz : ∀ i, zero i = 0)
    (hG : ∀ (j : Fin R) (n : Fin N), scatterRow N eS j = some n → gatherRow hN eG j = n) :
    mulf (broadcastInDim ⟨2, ![N, C]⟩ ![0, 1] hbN (broadcastInDim ⟨2, ![N, 1]⟩ ![0] hcN Binv))
        (Host.scatterAdd (rowScatterDims N C R swf) zero eS (Host.gather (rowGatherDims N C R gwf) xl nG))
      = Host.scatterAdd (rowScatterDims N C R swf) zero eS
          (mulf (broadcastInDim ⟨2, ![R, C]⟩ ![0, 1] hbR (broadcastInDim ⟨2, ![R, 1]⟩ ![0] hcR (Host.gather (vecGatherDims N R vwf) Binv eG)))
            (Host.gather (rowGatherDims N C R gwf) xl nG)) := by
  funext i
  obtain ⟨n, q, rfl⟩ : ∃ (n : Fin N) (q : Fin C), i = ix2 n q := ⟨i 0, i 1, eq_ix2 i⟩
  -- the left side at (n, q): the scale of row n times the sum of the gathered entries
  have hL : mulf (broadcastInDim ⟨2, ![N, C]⟩ ![0, 1] hbN (broadcastInDim ⟨2, ![N, 1]⟩ ![0] hcN Binv))
        (Host.scatterAdd (rowScatterDims N C R swf) zero eS (Host.gather (rowGatherDims N C R gwf) xl nG)) (ix2 n q)
      = Binv (ix1 n) * ∑ e ∈ Finset.univ.filter (fun e => scatterRow N eS e = some n), xl (ix2 (gatherRow hN nG e) q) := by
    rw [mulf_apply, Cert.Lib.Rows.dimCol_apply, column_apply, rowScatterAdd_apply swf, hz, zero_add]
    exact congrArg (Binv (ix1 n) * ·) (Finset.sum_congr rfl fun e _ => rowGather_apply hN gwf xl nG e q)
  -- the right side at (n, q): the sum of the scaled entries, the scale being row n's at every position of the sum
  have hR : Host.scatterAdd (rowScatterDims N C R swf) zero eS
          (mulf (broadcastInDim ⟨2, ![R, C]⟩ ![0, 1] hbR (broadcastInDim ⟨2, ![R, 1]⟩ ![0] hcR (Host.gather (vecGatherDims N R vwf) Binv eG)))
            (Host.gather (rowGatherDims N C R gwf) xl nG)) (ix2 n q)
      = ∑ e ∈ Finset.univ.filter (fun e => scatterRow N eS e = some n), Binv (ix1 n) * xl (ix2 (gatherRow hN nG e) q) := by
    rw [rowScatterAdd_apply swf, hz, zero_add]
    refine Finset.sum_congr rfl fun e he => ?_
    rw [mulf_apply, Cert.Lib.Rows.dimCol_apply, column_apply, vecGather_apply hN vwf, rowGather_apply hN gwf,
      hG e n (Finset.mem_filter.mp he).2]
  rw [hL, hR]
  -- on the reals the common factor comes out of the sum
  obtain ⟨b, hb⟩ := hB n
  choose f hf using fun m : Fin N => hX m q
  rw [hb]
  simp only [hf, ← EReal.coe_mul]
  rw [Cert.Lib.ERealSums.coe_sum_real, Cert.Lib.ERealSums.coe_sum_real, ← EReal.coe_mul, Finset.mul_sum]

/-! ## The wrap of a negative index leaves a row-naming word alone -/

/-- Where a word read signed is not negative, the wrap select(word < 0, word + N, word) keeps the word: the
    comparison with zero is false there, whatever the added word is. -/
theorem wrap_keeps {R : Nat} (Nword : BitVec 32)
    (hb0 : (⟨0, ![]⟩ : Shape).BroadcastsInDim ⟨1, ![R]⟩ ![])
    (v : IVec ⟨1, ![R]⟩ 32) (j : Fin R) (h0 : 0 ≤ (v (ix1 j)).toInt) :
    select (cmpi .slt v (broadcastInDim ⟨1, ![R]⟩ ![] hb0 (constantI ⟨0, ![]⟩ 32 0#32)))
        (addi v (broadcastInDim ⟨1, ![R]⟩ ![] hb0 (constantI ⟨0, ![]⟩ 32 Nword))) v (ix1 j) = v (ix1 j) := by
  show Scalar.select (IntOp.cmpi .slt (v (ix1 j)) 0#32) _ (v (ix1 j)) = v (ix1 j)
  have hc : IntOp.cmpi .slt (v (ix1 j)) 0#32 = 0#1 := by
    have hs : (v (ix1 j)).slt 0#32 = false := by
      rw [BitVec.slt, decide_eq_false_iff_not]
      simp only [BitVec.toInt_zero]
      omega
    show BitVec.ofBool ((v (ix1 j)).slt 0#32) = 0#1
    rw [hs]; rfl
  rw [hc, select_zero]

/-- THE NORMALISED COLUMN NAMES THE SAME ROW. A position whose raw word names row n for the accumulation has a
    word in [0, N), so the wrap keeps it, and the gather through the wrapped column reads row n. -/
theorem normalised_row {N R : Nat} (hN : 0 < N) (Nword : BitVec 32)
    (hb0 : (⟨0, ![]⟩ : Shape).BroadcastsInDim ⟨1, ![R]⟩ ![])
    (hcol : (⟨1, ![R]⟩ : Shape).BroadcastsInDim ⟨2, ![R, 1]⟩ ![0])
    (v : IVec ⟨1, ![R]⟩ 32) (j : Fin R) (n : Fin N)
    (h : scatterRow N (broadcastInDim ⟨2, ![R, 1]⟩ ![0] hcol v) j = some n) :
    gatherRow hN (broadcastInDim ⟨2, ![R, 1]⟩ ![0] hcol
        (select (cmpi .slt v (broadcastInDim ⟨1, ![R]⟩ ![] hb0 (constantI ⟨0, ![]⟩ 32 0#32)))
                (addi v (broadcastInDim ⟨1, ![R]⟩ ![] hb0 (constantI ⟨0, ![]⟩ 32 Nword))) v)) j = n := by
  -- the raw column's word at j, read signed, is the vector's
  have hv : colInt (broadcastInDim ⟨2, ![R, 1]⟩ ![0] hcol v) j = (v (ix1 j)).toInt := by
    unfold colInt
    rw [column_apply]
  -- it is not negative, since it names a row
  have h0 : 0 ≤ (v (ix1 j)).toInt := by
    unfold scatterRow at h
    split at h
    · rename_i hr
      rw [hv] at hr
      exact hr.1
    · exact absurd h (by simp)
  -- so the wrapped column holds the same word at j, and the gather reads the same row
  have hw : colInt (broadcastInDim ⟨2, ![R, 1]⟩ ![0] hcol
        (select (cmpi .slt v (broadcastInDim ⟨1, ![R]⟩ ![] hb0 (constantI ⟨0, ![]⟩ 32 0#32)))
                (addi v (broadcastInDim ⟨1, ![R]⟩ ![] hb0 (constantI ⟨0, ![]⟩ 32 Nword))) v)) j
      = colInt (broadcastInDim ⟨2, ![R, 1]⟩ ![0] hcol v) j := by
    rw [hv]
    unfold colInt
    rw [column_apply, wrap_keeps Nword hb0 v j h0]
  have hg : gatherRow hN (broadcastInDim ⟨2, ![R, 1]⟩ ![0] hcol
        (select (cmpi .slt v (broadcastInDim ⟨1, ![R]⟩ ![] hb0 (constantI ⟨0, ![]⟩ 32 0#32)))
                (addi v (broadcastInDim ⟨1, ![R]⟩ ![] hb0 (constantI ⟨0, ![]⟩ 32 Nword))) v)) j
      = gatherRow hN (broadcastInDim ⟨2, ![R, 1]⟩ ![0] hcol v) j := by
    refine Fin.ext ?_
    show min (colInt _ j).toNat (N - 1) = min (colInt _ j).toNat (N - 1)
    rw [hw]
  rw [hg]
  exact gatherRow_of_scatterRow hN _ j n h

/-! ## Constants, a rank-0 broadcast, and the inverse degree -/

/-- The f32 pattern of zero, as a rank-0 constant, is the extended real zero. -/
theorem const_zero (i : (⟨0, ![]⟩ : Shape).Idx) :
    (constant ⟨0, ![]⟩ .f32 0x00000000#32 : FVec Ideal ⟨0, ![]⟩ .f32) i = 0 := Ideal.ofBits_zero_f32

/-- The f32 pattern of 1.0, as a rank-0 constant, is the extended real one. -/
theorem const_one (i : (⟨0, ![]⟩ : Shape).Idx) :
    (constant ⟨0, ![]⟩ .f32 0x3F800000#32 : FVec Ideal ⟨0, ![]⟩ .f32) i = 1 := Ideal.ofBits_one_f32

/-- A rank-0 array broadcast to any shape reads its one entry everywhere. -/
theorem splat_apply {α : Type} {s : Shape} (h : (⟨0, ![]⟩ : Shape).BroadcastsInDim s ![])
    (c : (⟨0, ![]⟩ : Shape).Idx → α) (i : s.Idx) : broadcastInDim s ![] h c i = c ix0 :=
  broadcastInDim_scalar_apply h c i

/-- A count is a nonnegative real: zeros accumulated with ones through any column of words. -/
theorem degree_nonneg {N R : Nat} (d : ScatterDims ⟨1, ![N]⟩ ⟨2, ![R, 1]⟩ ⟨1, ![R]⟩)
    (zero : FVec Ideal ⟨1, ![N]⟩ .f32) (idx : IVec ⟨2, ![R, 1]⟩ 32) (ones : FVec Ideal ⟨1, ![R]⟩ .f32)
    (h0 : ∀ i, zero i = 0) (h1 : ∀ j, ones j = 1) (i : (⟨1, ![N]⟩ : Shape).Idx) :
    Cert.LibScatterNonneg.NonnegReal (Host.scatterAdd d zero idx ones i) :=
  Cert.LibScatterNonneg.scatterAdd_nonnegReal d zero idx ones
    (fun i => by rw [h0]; exact Cert.LibScatterNonneg.NonnegReal.zero)
    (fun j => by rw [h1]; exact ⟨1, zero_le_one, by simp⟩) i

/-- THE INVERSE DEGREE IS REAL. With B a nonnegative real at every entry, where(B > 0, 1 / B, 0) is a real number
    at every entry: the reciprocal of a positive real where B is positive, and zero where B is zero (there the
    comparison is false and the select takes the zero). -/
theorem inv_degree_real {N : Nat} (B one zero zero' : FVec Ideal ⟨1, ![N]⟩ .f32)
    (hB : ∀ i, Cert.LibScatterNonneg.NonnegReal (B i)) (h1 : ∀ i, one i = 1) (h0 : ∀ i, zero i = 0)
    (h0' : ∀ i, zero' i = 0) (n : Fin N) :
    ∃ r : ℝ, select (cmpf .ogt B zero) (Host.divf one B) zero' (ix1 n) = (r : EReal) := by
  obtain ⟨b, hb0, hb⟩ := hB (ix1 n)
  show ∃ r : ℝ, Scalar.select (Ideal.cmp .ogt (B (ix1 n)) (zero (ix1 n))) (Ideal.div (one (ix1 n)) (B (ix1 n)))
      (zero' (ix1 n)) = (r : EReal)
  rw [hb, h0, h0', h1]
  by_cases hpos : 0 < b
  · have hc : Ideal.cmp .ogt (b : EReal) 0 = 1#1 := by
      have : (0 : EReal) < (b : EReal) := by exact_mod_cast hpos
      simp [Ideal.cmp, this]
    rw [hc, select_one, Ideal.div_coe hpos.ne', one_mul]
    exact ⟨1 / b, rfl⟩
  · have hb' : b = 0 := le_antisymm (not_lt.mp hpos) hb0
    have hc : Ideal.cmp .ogt (b : EReal) 0 = 0#1 := by
      subst hb'
      simp [Ideal.cmp]
    rw [hc, select_zero]
    exact ⟨0, by simp⟩

end Cert.HoistLaw

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.FiniteInputs.lean ====
/-
  Every entry of the two matrix inputs is a real number, read off the "all inputs are finite" predicate.

  The predicate tests each float argument entry by entry, `|x| < +∞`, takes the conjunction of the entries of one
  argument (a reduction by `and` over all axes, started at 1) and then the conjunction over the arguments, nested to the left:
  `((((a0 ∧ a2) ∧ a3) ∧ a4) ∧ a5)`. If the whole is 1 then so is each conjunct; a reduction by `and` that came out 1
  met only 1s; and on the extended reals `max x (-x) < ⊤` holds exactly when `x` is neither `⊤` nor `⊥`, that is,
  when `x` is a real.
-/
import proofs.«175230_j67147518705696_2_alg».proof.Pre_finite_inputs
import proofs.«175230_j67147518705696_2_alg».proof.Proof.Gen.Pre_finite_inputs
import Idealize.ShloMosaic.Lib.ReduceAll
import Idealize.ShloMosaic.PureOps.Ideal.Laws
import proofs.«175230_j67147518705696_2_alg».proof.Proof.LibFiniteReal

noncomputable section

namespace Cert.FiniteInputs

open Idealize.ShloMosaic

/-- One entry of the test: the comparison of `|x|` with the splat of the `+∞` pattern, at index `i`, is by definition
    the scalar comparison `max (x i) (-(x i)) < +∞`; where it is 1 the entry is a real. -/
theorem real_of_entry {s : Shape} (dims : Fin Cert.Pre_finite_inputs.S_.rank → Fin s.rank)
    (hb : Cert.Pre_finite_inputs.S_.BroadcastsInDim s dims) (x : FVec Ideal s .f32) (i : s.Idx)
    (h : cmpf .olt (Host.absf x)
        (broadcastInDim s dims hb (constant (F := Ideal) Cert.Pre_finite_inputs.S_ .f32 0x7F800000#32)) i = 1#1) :
    ∃ r : ℝ, x i = (r : EReal) :=
  Cert.Lib.FiniteReal.real_of_abs_lt_inf (x i) h

/-- From the predicate being 1: every entry of argument 0 and of argument 4 is a real. -/
theorem reals_of_pre [Cert.Pre_finite_inputs.Facts]
    (x0 : FVec Ideal Cert.Pre_finite_inputs.S50000x128 .f32) (x1 : IVec Cert.Pre_finite_inputs.S2x800000 32)
    (x2 : FVec Ideal Cert.Pre_finite_inputs.S1x128 .f32) (x3 : FVec Ideal Cert.Pre_finite_inputs.S1 .f32)
    (x4 : FVec Ideal Cert.Pre_finite_inputs.S128x128 .f32) (x5 : FVec Ideal Cert.Pre_finite_inputs.S128 .f32)
    (h : Cert.Pre_finite_inputs.fn (F := Ideal) x0 x1 x2 x3 x4 x5 = fun _ => 1#1) :
    (∀ i, ∃ r : ℝ, x0 i = (r : EReal)) ∧ (∀ i, ∃ r : ℝ, x4 i = (r : EReal)) := by
  haveI : Subsingleton Cert.Pre_finite_inputs.S_.Idx := Cert.Lib.FiniteReal.subsingleton_idx0
  -- the predicate at its one index, with the chain of operations in view
  have h0 := congrFun h (fun a => a.elim0)
  dsimp only [Cert.Pre_finite_inputs.fn, Cert.Pre_finite_inputs.fn_part1, andi] at h0
  -- the conjunction over the arguments, split from the outside in: (((a0 ∧ a2) ∧ a3) ∧ a4) ∧ a5
  obtain ⟨h0123, -⟩ := IntOp.andi_eq_one.1 h0
  obtain ⟨h012, ha4⟩ := IntOp.andi_eq_one.1 h0123
  obtain ⟨h01, -⟩ := IntOp.andi_eq_one.1 h012
  obtain ⟨ha0, -⟩ := IntOp.andi_eq_one.1 h01
  -- each conjunct is a reduction by `and` over all axes: every entry of the tested array is 1
  exact ⟨fun i => real_of_entry _ _ x0 i (Host.reduce_andi_all _ _ _ _ _ ha0 i),
    fun i => real_of_entry _ _ x4 i (Host.reduce_andi_all _ _ _ _ _ ha4 i)⟩

end Cert.FiniteInputs

end
-- ==== Proof.Bridge.lean ====
/-
  The two results are one array.

  After the region the kernel's program applies its later host operations to the region's result, the
  projection x · lin_wᵀ; the reference applies its own host operations to the launch contents. Read as pure
  functions of the six arguments the two compositions are the same operations of the same values — the attention
  weights, the node degrees and their guarded reciprocal, the hyperedge degrees and theirs, the second round of
  gathering and accumulating, the scaling by the inverse node degree and the bias — except inside the first
  accumulation: the reference scales each gathered row of the projection by the inverse degree of its hyperedge and
  then accumulates, the kernel accumulates the gathered rows and scales the sum. The two agree because the inverse
  degree of a hyperedge is a real number (the degree is a count), every entry of the projection is a real number
  (a finite sum of products of finite inputs), and a position whose raw hyperedge word names a row has a word that
  the wrap of negative words leaves alone.
-/
import proofs.«175230_j67147518705696_2_alg».proof.Proof.KernelIdealFrame
import proofs.«175230_j67147518705696_2_alg».proof.Proof.KernelIdealArray
import proofs.«175230_j67147518705696_2_alg».proof.Proof.ReferenceRunPatched
import proofs.«175230_j67147518705696_2_alg».proof.Proof.HoistLaw
import proofs.«175230_j67147518705696_2_alg».proof.Proof.FiniteInputs
import proofs.«175230_j67147518705696_2_alg».proof.Proof.Products
import proofs.«175230_j67147518705696_2_alg».proof.Pre_finite_inputs
import proofs.«175230_j67147518705696_2_alg».proof.Proof.Gen.Pre_finite_inputs
import Idealize.ShloMosaic.Lib.StableHlo.Run
import Idealize.ShloMosaic.PureOps.Ideal

noncomputable section

namespace Cert.Bridge

open Cert.KernelIdeal Cert.KernelIdeal.Gen Cert.KernelIdeal.Around
open Idealize.ShloMosaic Idealize.ShloMosaic.TcCoe Idealize.SL.Sem Idealize.ShloMosaic.StableHlo Idealize.ShloMosaic.ValueIdx
open Idealize.ShloMosaic.Pipeline (Dat)
open Cert.KernelIdeal.ArrayOf (proj final_xl)

/-! ## The two guarded reciprocals, respelt

A guarded reciprocal where(d > 0, 1 / d, 0) is a small function of its own in the program; its three operations
are written over references that carry their value's type. Each such reference carries its own type, so the
operations are the plain ones at the same buffers with the same functions. -/

/-- The guard of the node degrees, as plain operations. -/
abbrev guardNode : List (HloOp τ sig (Elt Ideal)) :=
  [ StableHlo.unary main_cst_5 main_call0_v0 (id : (⟨S_, .f32⟩ : BufTy).Contents (Elt Ideal) → (⟨S_, .f32⟩ : BufTy).Contents (Elt Ideal)),
    StableHlo.unary main_call0_v0 main_call0_v1 (broadcastInDim S50000 ![] Facts₀.bcast_S_S50000 : (⟨S_, .f32⟩ : BufTy).Contents (Elt Ideal) → (⟨S50000, .f32⟩ : BufTy).Contents (Elt Ideal)),
    StableHlo.ternary main_v30 main_v32 main_call0_v1 main_v33 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ]

/-- The guard of the hyperedge degrees, as plain operations. -/
abbrev guardEdge : List (HloOp τ sig (Elt Ideal)) :=
  [ StableHlo.unary main_cst_10 main_call1_v0 (id : (⟨S_, .f32⟩ : BufTy).Contents (Elt Ideal) → (⟨S_, .f32⟩ : BufTy).Contents (Elt Ideal)),
    StableHlo.unary main_call1_v0 main_call1_v1 (broadcastInDim S50000 ![] Facts₀.bcast_S_S50000 : (⟨S_, .f32⟩ : BufTy).Contents (Elt Ideal) → (⟨S50000, .f32⟩ : BufTy).Contents (Elt Ideal)),
    StableHlo.ternary main_v39 main_v41 main_call1_v1 main_v42 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ]

theorem guardNode_eq : (hostOps1_1 : List (HloOp τ sig (Elt Ideal))) = guardNode := rfl
theorem guardEdge_eq : (hostOps1_3 : List (HloOp τ sig (Elt Ideal))) = guardEdge := rfl

/-! ## The inverse hyperedge degree is a real number -/

section EdgeScale

/-- A zero splat reads zero everywhere, a one splat one. -/
theorem zeros_apply (i : Cert.ReferenceIdeal.S50000.Idx) :
    (broadcastInDim Cert.ReferenceIdeal.S50000 ![] Cert.ReferenceIdeal.Facts₀.bcast_S_S50000 (constant Cert.ReferenceIdeal.S_ .f32 0x00000000#32) : FVec Ideal Cert.ReferenceIdeal.S50000 .f32) i = 0 :=
  (Cert.HoistLaw.splat_apply Cert.ReferenceIdeal.Facts₀.bcast_S_S50000 _ i).trans (Cert.HoistLaw.const_zero _)
theorem zerosId_apply (i : Cert.ReferenceIdeal.S50000.Idx) :
    (broadcastInDim Cert.ReferenceIdeal.S50000 ![] Cert.ReferenceIdeal.Facts₀.bcast_S_S50000 (id (constant Cert.ReferenceIdeal.S_ .f32 0x00000000#32)) : FVec Ideal Cert.ReferenceIdeal.S50000 .f32) i = 0 :=
  (Cert.HoistLaw.splat_apply Cert.ReferenceIdeal.Facts₀.bcast_S_S50000 _ i).trans (Cert.HoistLaw.const_zero _)
theorem ones_apply (i : Cert.ReferenceIdeal.S50000.Idx) :
    (broadcastInDim Cert.ReferenceIdeal.S50000 ![] Cert.ReferenceIdeal.Facts₀.bcast_S_S50000 (constant Cert.ReferenceIdeal.S_ .f32 0x3F800000#32) : FVec Ideal Cert.ReferenceIdeal.S50000 .f32) i = 1 :=
  (Cert.HoistLaw.splat_apply Cert.ReferenceIdeal.Facts₀.bcast_S_S50000 _ i).trans (Cert.HoistLaw.const_one _)
theorem onesLong_apply (j : Cert.ReferenceIdeal.S800000.Idx) :
    (broadcastInDim Cert.ReferenceIdeal.S800000 ![] Cert.ReferenceIdeal.Facts₀.bcast_S_S800000 (constant Cert.ReferenceIdeal.S_ .f32 0x3F800000#32) : FVec Ideal Cert.ReferenceIdeal.S800000 .f32) j = 1 :=
  (Cert.HoistLaw.splat_apply Cert.ReferenceIdeal.Facts₀.bcast_S_S800000 _ j).trans (Cert.HoistLaw.const_one _)

/-- The count of positions whose hyperedge word names a row: zeros accumulated with ones. -/
abbrev edgeDegree (e3 : IVec Cert.ReferenceIdeal.S800000 32) : FVec Ideal Cert.ReferenceIdeal.S50000 .f32 :=
  Host.scatterAdd (F := Ideal) Cert.ReferenceIdeal.scatter_S50000_S800000x1_S800000_n_0_0_1
    (broadcastInDim Cert.ReferenceIdeal.S50000 ![] Cert.ReferenceIdeal.Facts₀.bcast_S_S50000 (constant Cert.ReferenceIdeal.S_ .f32 0x00000000#32))
    (broadcastInDim Cert.ReferenceIdeal.S800000x1 ![0] Cert.ReferenceIdeal.Facts₀.bcast_S800000_S800000x1_0 e3)
    (broadcastInDim Cert.ReferenceIdeal.S800000 ![] Cert.ReferenceIdeal.Facts₀.bcast_S_S800000 (constant Cert.ReferenceIdeal.S_ .f32 0x3F800000#32))

/-- where(degree > 0, 1 / degree, 0) is a real number at every hyperedge: the degree is a count. -/
theorem edgeScale_real (e3 : IVec Cert.ReferenceIdeal.S800000 32) (n : Fin 50000) :
    ∃ r : ℝ, (select
        (cmpf .ogt (edgeDegree e3)
          (broadcastInDim Cert.ReferenceIdeal.S50000 ![] Cert.ReferenceIdeal.Facts₀.bcast_S_S50000 (constant Cert.ReferenceIdeal.S_ .f32 0x00000000#32)))
        (Host.divf (broadcastInDim Cert.ReferenceIdeal.S50000 ![] Cert.ReferenceIdeal.Facts₀.bcast_S_S50000 (constant Cert.ReferenceIdeal.S_ .f32 0x3F800000#32))
          (edgeDegree e3))
        (broadcastInDim Cert.ReferenceIdeal.S50000 ![] Cert.ReferenceIdeal.Facts₀.bcast_S_S50000 (id (constant Cert.ReferenceIdeal.S_ .f32 0x00000000#32)))
        : FVec Ideal Cert.ReferenceIdeal.S50000 .f32) (ix1 n) = (r : EReal) :=
  Cert.HoistLaw.inv_degree_real (N := 50000) (edgeDegree e3) _ _ _
    (fun i => Cert.HoistLaw.degree_nonneg (N := 50000) (R := 800000) Cert.ReferenceIdeal.scatter_S50000_S800000x1_S800000_n_0_0_1 _ _ _
      zeros_apply onesLong_apply i)
    ones_apply zeros_apply zerosId_apply n
end EdgeScale

variable (m : (ℓ : Loc nD τ sig) → Buf (Elt Ideal) ℓ)

/-- The row of node words, as the region finds it: row 0 of the index table, flattened. -/
theorem nodeWords (c : Dev nD) : (V m c main_v1 : S800000.Idx → BitVec 32)
    = shapeCast S800000 (extractStridedSlice S1x800000 ![0, 0] (m ((c : Thread nD τ).loc main_arg1)) Facts₀.slices_S2x800000_S1x800000_0_0) Facts₀.shapeCasts_S1x800000_S800000 := by
  dsimp only [V, V0]
  simp only [hostOps0, List.flatten_cons, List.flatten_nil, List.append_nil]
  after_results
  rfl

/-- The row of hyperedge words: row 1 of the index table, flattened. -/
theorem edgeWords (c : Dev nD) : (V m c main_v3 : S800000.Idx → BitVec 32)
    = shapeCast S800000 (extractStridedSlice S1x800000 ![1, 0] (m ((c : Thread nD τ).loc main_arg1)) Facts₀.slices_S2x800000_S1x800000_1_0) Facts₀.shapeCasts_S1x800000_S800000 := by
  dsimp only [V, V0]
  simp only [hostOps0, List.flatten_cons, List.flatten_nil, List.append_nil]
  after_results
  rfl

set_option maxRecDepth 16384 in
set_option maxHeartbeats 8000000 in
theorem result_eq (m' : (ℓ : Loc Cert.ReferenceIdeal.nD Cert.ReferenceIdeal.τ Cert.ReferenceIdeal.sig) → Buf (Elt Ideal) ℓ) (c : Dev nD)

    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    Cert.ReferenceIdeal.ValueP.res_main_v77 m' c = Pipeline.afterTail₀ cfgs (dats m) 0 (V0 m) tailOps c main_v71 := by
  obtain ⟨hreal0, hreal4⟩ := Cert.FiniteInputs.reals_of_pre _ _ _ _ _ _ hpre
  obtain ⟨h0, h1, h2, h3, h4, h5⟩ := hag
  unfold Pipeline.afterTail₀
  have l0 : Pipeline.withArrays (cfgs 0).spec c (V0 m c) (fun w => (dats m 0 c).arrAt w (cfgs 0).N) (Proc.devRef .tc main_arg0)
      = m ((c : Thread nD τ).loc main_arg0) :=
    (Pipeline.withArrays_arr spec0 launch0.win.arr_inj c _ _ 0).trans
      (((dats m 0 c).arrAt_in 0 rfl _).trans ((A_eq m c 0).trans (V_main_arg0 m c)))
  have l2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by decide)).trans (V_main_arg2 m c)
  have l3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by decide)).trans (V_main_arg3 m c)
  have l5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by decide)).trans (V_main_arg5 m c)
  have lv1 := (Pipeline.withArrays_of_ne (cfgs 0).spec c (V0 m c) (fun w => (dats m 0 c).arrAt w (cfgs 0).N) main_v1 (by decide)).trans (nodeWords m c)
  have lv3 := (Pipeline.withArrays_of_ne (cfgs 0).spec c (V0 m c) (fun w => (dats m 0 c).arrAt w (cfgs 0).N) main_v3 (by decide)).trans (edgeWords m c)
  have lv6 := (Pipeline.withArrays_arr spec0 launch0.win.arr_inj c (V0 m c) (fun w => (dats m 0 c).arrAt w (cfgs 0).N) 2).trans (final_xl m c)
  generalize Pipeline.withArrays (cfgs 0).spec c (V0 m c) (fun w => (dats m 0 c).arrAt w (cfgs 0).N) = W at l0 l2 l3 l5 lv1 lv3 lv6 ⊢
  rw [show (tailOps (F := Ideal)) = [hostOps1, guardNode, hostOps1_2, guardEdge, hostOps1_4] from by rw [← guardNode_eq, ← guardEdge_eq]]
  simp only [hostOps1, guardNode, hostOps1_2, guardEdge, hostOps1_4, List.flatten_cons, List.flatten_nil, List.append_nil, List.cons_append, List.nil_append]
  after_results_simp
  rw [l0, l2, l3, l5, lv1, lv3, lv6]
  unfold Cert.ReferenceIdeal.ValueP.res_main_v77
  rw [h0, h1, h2, h3, h4, h5]

  refine congrArg₂ addf ?_ rfl
  refine congrArg₂ mulf rfl ?_
  refine congrArg (Host.scatterAdd _ _ _) ?_
  refine congrFun (congrArg (Host.gather _) ?_) _
  have hXL : ∀ (x0 : FVec Ideal Cert.ReferenceIdeal.S50000x128 .f32) (x4 : FVec Ideal Cert.ReferenceIdeal.S128x128 .f32),
      Host.dotGeneral (F := Ideal) Cert.ReferenceIdeal.dot_S50000x128_S128x128_S50000x128_1_0_0_1_n_n none x0
        (transpose Cert.ReferenceIdeal.S128x128 [1, 0] x4 Cert.ReferenceIdeal.Facts₀.transposes_S128x128_S128x128_1_0) = proj x0 x4 := by
    intro x0 x4
    funext i
    obtain ⟨n, q, rfl⟩ : ∃ (n : Fin 50000) (q : Fin 128), i = ix2 n q := ⟨i 0, i 1, eq_ix2 i⟩
    exact Cert.Products.ref_proj_apply x0 x4 n q
  rw [hXL]
  refine (Cert.HoistLaw.hoist (N := 50000) (C := 128) (R := 800000) (by decide) _ _ _ _ _ _ _ _ _ _ _ _ _ ?hB ?hX ?hz ?hG).symm
  case hB =>
    intro n
    exact edgeScale_real _ n
  case hX =>
    intro n q
    exact Cert.HoistLaw.sum_mul_real _ _ (fun k => hreal0 _) (fun k => hreal4 _)
  case hz =>
    exact fun i => (Cert.HoistLaw.splat_apply _ _ i).trans (Cert.HoistLaw.const_zero _)
  case hG =>
    exact fun j n h => Cert.HoistLaw.normalised_row (by decide) 50000#32 _ _ _ j n h

end Cert.Bridge
end
-- ==== Proof.lean ====
/-
  The certificate of a hypergraph convolution: the kernel computes the dense projection x · lin_wᵀ as a tiled
  matrix product and hoists the per-hyperedge inverse degree out of the first segment sum; the reference scales
  each message by the inverse degree of its hyperedge before summing.

  The three frames: each program runs to the end, faults nowhere, and leaves its six arguments as launched — for
  the two kernel programs by the frame of the one tiled region between its host operations, for the reference by
  its run with the result dropped. The idealization rewrote nothing, so there is nothing to preserve. At the exact
  reading the two results agree entry by entry: everything outside the first segment sum is the same operations
  of the same values; inside it, the projection is the same finite sum on both sides, and the inverse degree of a
  hyperedge is one real factor common to every message that lands on that hyperedge, so it comes out of the sum
  of real messages by distributivity. The messages are real because the inputs are finite; that is the one place
  the precondition is used.
-/
import proofs.«175230_j67147518705696_2_alg».proof.Defs
import proofs.«175230_j67147518705696_2_alg».proof.Proof.Gen.Kernel
import proofs.«175230_j67147518705696_2_alg».proof.Proof.Gen.Kernel.Skeleton
import proofs.«175230_j67147518705696_2_alg».proof.Proof.Gen.Kernel.Launch
import proofs.«175230_j67147518705696_2_alg».proof.Proof.Gen.Kernel.Points
import proofs.«175230_j67147518705696_2_alg».proof.Proof.Gen.KernelIdeal
import proofs.«175230_j67147518705696_2_alg».proof.Proof.Gen.KernelIdeal.Skeleton
import proofs.«175230_j67147518705696_2_alg».proof.Proof.Gen.KernelIdeal.Launch
import proofs.«175230_j67147518705696_2_alg».proof.Proof.Gen.KernelIdeal.Points
import proofs.«175230_j67147518705696_2_alg».proof.Proof.Gen.ReferenceIdeal
import proofs.«175230_j67147518705696_2_alg».proof.Proof.Gen.Pre_finite_inputs
import proofs.«175230_j67147518705696_2_alg».proof.Proof.KernelFrame
import proofs.«175230_j67147518705696_2_alg».proof.Proof.KernelIdealFrame
import proofs.«175230_j67147518705696_2_alg».proof.Proof.ReferenceRunPatched
import proofs.«175230_j67147518705696_2_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Around.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Around.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem preserves : Cert.preserves_Kernel_KernelIdeal := trivial

/-- Both idealized programs run; the kernel's result is the later host operations' composition over the region's
    arrays, and the reference's composed term is that same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Pipeline.afterTail₀ Cert.KernelIdeal.cfgs (Cert.KernelIdeal.Around.dats m) 0 (Cert.KernelIdeal.Around.V0 m)
    Cert.KernelIdeal.Around.tailOps c Cert.KernelIdeal.main_v71, Cert.KernelIdeal.Around.run_named m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m m' c (hpre c) (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
